-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x20x256 : Shape := ⟨3, ![16384, 20, 256]⟩
abbrev S256x256 : Shape := ⟨2, ![256, 256]⟩
abbrev S_ : Shape := ⟨0, ![]⟩

class Facts : Prop where
  bcast_S_S16384x20x256 : S_.BroadcastsInDim S16384x20x256 (![] : Fin 0 → Fin S16384x20x256.rank)
  reducesTo_S16384x20x256_S_d0_1_2 : S16384x20x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S16384x20x256 .f32) (main_arg1 : FVec F S16384x20x256 .f32) (main_arg2 : FVec F S256x256 .f32) (main_arg3 : FVec F S256x256 .f32) (main_arg4 : FVec F S256x256 .f32) : IVec S_ 1 :=
  let main_v0 : FVec F S16384x20x256 .f32 := Host.absf main_arg0
  let main_cst : FVec F S_ .f32 := constant S_ .f32 0x7F800000#32
  let main_v1 : FVec F S16384x20x256 .f32 := broadcastInDim S16384x20x256 ![] bcast_S_S16384x20x256 main_cst
  let main_v2 : IVec S16384x20x256 1 := cmpf .olt main_v0 main_v1
  let main_c : IVec S_ 1 := constantI S_ 1 1#1
  let main_v3 : IVec S_ 1 := (fun x v => Host.reduce IntOp.andi x v reducesTo_S16384x20x256_S_d0_1_2 h_S_) main_v2 main_c
  let main_v4 : FVec F S16384x20x256 .f32 := Host.absf main_arg1
  let main_cst_0 : FVec F S_ .f32 := constant S_ .f32 0x7F800000#32
  let main_v5 : FVec F S16384x20x256 .f32 := broadcastInDim S16384x20x256 ![] bcast_S_S16384x20x256 main_cst_0
  let main_v6 : IVec S16384x20x256 1 := cmpf .olt main_v4 main_v5
  let main_c_1 : IVec S_ 1 := constantI S_ 1 1#1
  let main_v7 : IVec S_ 1 := (fun x v => Host.reduce IntOp.andi x v reducesTo_S16384x20x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S16384x20x256 : Shape := ⟨3, ![16384, 20, 256]⟩
abbrev S256x256 : Shape := ⟨2, ![256, 256]⟩
abbrev S20x20 : Shape := ⟨2, ![20, 20]⟩
abbrev S256x512 : Shape := ⟨2, ![256, 512]⟩
abbrev S327680x256 : Shape := ⟨2, ![327680, 256]⟩
abbrev S1280x256 : Shape := ⟨2, ![1280, 256]⟩
abbrev S64x20x256 : Shape := ⟨3, ![64, 20, 256]⟩
abbrev S1280x512 : Shape := ⟨2, ![1280, 512]⟩
abbrev S64x20x512 : Shape := ⟨3, ![64, 20, 512]⟩
abbrev S64x20x20 : Shape := ⟨3, ![64, 20, 20]⟩
abbrev S1x20x20 : Shape := ⟨3, ![1, 20, 20]⟩
abbrev S64x20 : Shape := ⟨2, ![64, 20]⟩
abbrev S64x20x1 : Shape := ⟨3, ![64, 20, 1]⟩

abbrev nBuf : Space → Nat
  | .hbm => 15
  | .vmem => 9
  | .smem => 0
  | _ => 0

abbrev bufTy : (tb : Table) → Fin (tcTables nBuf tb) → BufTy
  | .hbm, ⟨0, _⟩ => ⟨S16384x20x256, .f32⟩
  | .hbm, ⟨1, _⟩ => ⟨S16384x20x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S20x20, .f32⟩
  | .hbm, ⟨6, _⟩ => ⟨S256x256, .f32⟩
  | .hbm, ⟨7, _⟩ => ⟨S256x256, .bf16⟩
  | .hbm, ⟨8, _⟩ => ⟨S256x256, .f32⟩
  | .hbm, ⟨9, _⟩ => ⟨S256x256, .f32⟩
  | .hbm, ⟨10, _⟩ => ⟨S256x512, .f32⟩
  | .hbm, ⟨11, _⟩ => ⟨S256x512, .bf16⟩
  | .hbm, ⟨12, _⟩ => ⟨S327680x256, .f32⟩
  | .hbm, ⟨13, _⟩ => ⟨S327680x256, .f32⟩
  | .hbm, ⟨14, _⟩ => ⟨S16384x20x256, .f32⟩
  | .local _ .vmem, ⟨0, _⟩ => ⟨S1280x256, .f32⟩
  | .local _ .vmem, ⟨1, _⟩ => ⟨S1280x256, .f32⟩
  | .local _ .vmem, ⟨2, _⟩ => ⟨S1280x256, .f32⟩
  | .local _ .vmem, ⟨3, _⟩ => ⟨S1280x256, .f32⟩
  | .local _ .vmem, ⟨4, _⟩ => ⟨S256x256, .bf16⟩
  | .local _ .vmem, ⟨5, _⟩ => ⟨S256x512, .bf16⟩
  | .local _ .vmem, ⟨6, _⟩ => ⟨S20x20, .f32⟩
  | .local _ .vmem, ⟨7, _⟩ => ⟨S64x20x256, .f32⟩
  | .local _ .vmem, ⟨8, _⟩ => ⟨S64x20x256, .f32⟩
  | _, _ => ⟨S16384x20x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1280x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x20x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S256x256_S256x256_1_0 : S256x256.Transposes [1, 0] S256x256
  bitsLt_bf16_f32 : FTy.bits .bf16 < FTy.bits .f32
  concatenates_S256x256_S256x256_S256x512_d1 : Shape.Concatenates [S256x256, S256x256] S256x512 1
  shapeCasts_S16384x20x256_S327680x256 : S16384x20x256.ShapeCasts S327680x256
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S1280x256_S64x20x256 : S1280x256.ShapeCasts S64x20x256
  shapeCasts_S1280x512_S64x20x512 : S1280x512.ShapeCasts S64x20x512
  slices_S64x20x512_o0_0_0_S64x20x256 : S64x20x512.Slices ![0, 0, 0] S64x20x256
  slices_S64x20x512_o0_0_256_S64x20x256 : S64x20x512.Slices ![0, 0, 256] S64x20x256
  inb_S20x20_S20x20_0_0 : ∀ a, (![0, 0] : Fin 2 → Nat) a + S20x20.size a ≤ S20x20.size a
  h_S20x20 : 0 < S20x20.numel
  shapeCasts_S20x20_S1x20x20 : S20x20.ShapeCasts S1x20x20
  broadcasts_S1x20x20_S64x20x20 : S1x20x20.Broadcasts S64x20x20
  reduces_S64x20x20_S64x20 : S64x20x20.Reduces [2] S64x20
  shapeCasts_S64x20_S64x20x1 : S64x20.ShapeCasts S64x20x1
  broadcasts_S64x20x1_S64x20x20 : S64x20x1.Broadcasts S64x20x20
  inb_S64x20x256_S64x20x256_0_0_0 : ∀ a, (![0, 0, 0] : Fin 3 → Nat) a + S64x20x256.size a ≤ S64x20x256.size a
  h_S64x20x256 : 0 < S64x20x256.numel
  dot_S1280x256_S256x256_S1280x256_1_0_0_1_n_n_wf : DotDims.WF S1280x256 S256x256 S1280x256 [1] [0] [0] [1] [] []
  dot_S1280x256_S256x512_S1280x512_1_0_0_1_n_n_wf : DotDims.WF S1280x256 S256x512 S1280x512 [1] [0] [0] [1] [] []
  dot_S64x20x256_S64x20x256_S64x20x20_2_2_1_1_0_0_wf : DotDims.WF S64x20x256 S64x20x256 S64x20x20 [2] [2] [1] [1] [0] [0]
  dot_S64x20x20_S64x20x256_S64x20x256_2_1_1_2_0_0_wf : DotDims.WF S64x20x20 S64x20x256 S64x20x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x256.size a ≤ S327680x256.size a
  hwx0_0 : ∀ i : grid0.Coords, EltTy.bits .f32 = 32 ∨ (Rect.block (s := S327680x256) S1280x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x256.size a ≤ S327680x256.size a
  hwx0_1 : ∀ i : grid0.Coords, EltTy.bits .f32 = 32 ∨ (Rect.block (s := S327680x256) S1280x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x20.size a ≤ S20x20.size a
  hwx0_4 : ∀ i : grid0.Coords, EltTy.bits .f32 = 32 ∨ (Rect.block (s := S20x20) S20x20.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x20x256.size a ≤ S16384x20x256.size a
  hwx0_5 : ∀ i : grid0.Coords, EltTy.bits .f32 = 32 ∨ (Rect.block (s := S16384x20x256) S64x20x256.size (cc0_transform_5 i) (hinb0_5 i)).WholeWords (EltTy.packing .f32)

variable [Facts₀]

def dot_S1280x256_S256x256_S1280x256_1_0_0_1_n_n : DotDims S1280x256 S256x256 S1280x256 where
  lhsContracting := [1]
  rhsContracting := [0]
  lhsNonContracting := [0]
  rhsNonContracting := [1]
  lhsBatch := []
  rhsBatch := []
  wf := dot_S1280x256_S256x256_S1280x256_1_0_0_1_n_n_wf
def dot_S1280x256_S256x512_S1280x512_1_0_0_1_n_n : DotDims S1280x256 S256x512 S1280x512 where
  lhsContracting := [1]
  rhsContracting := [0]
  lhsNonContracting := [0]
  rhsNonContracting := [1]
  lhsBatch := []
  rhsBatch := []
  wf := dot_S1280x256_S256x512_S1280x512_1_0_0_1_n_n_wf
def dot_S64x20x256_S64x20x256_S64x20x20_2_2_1_1_0_0 : DotDims S64x20x256 S64x20x256 S64x20x20 where
  lhsContracting := [2]
  rhsContracting := [2]
  lhsNonContracting := [1]
  rhsNonContracting := [1]
  lhsBatch := [0]
  rhsBatch := [0]
  wf := dot_S64x20x256_S64x20x256_S64x20x20_2_2_1_1_0_0_wf
def dot_S64x20x20_S64x20x256_S64x20x256_2_1_1_2_0_0 : DotDims S64x20x20 S64x20x256 S64x20x256 where
  lhsContracting := [2]
  rhsContracting := [1]
  lhsNonContracting := [1]
  rhsNonContracting := [2]
  lhsBatch := [0]
  rhsBatch := [0]
  wf := dot_S64x20x20_S64x20x256_S64x20x256_2_1_1_2_0_0_wf

abbrev win0_0 : Pipeline.Window sig grid0 :=
  Pipeline.Window.ofSpec (Memref.whole main_v6) S1280x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1280x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_cst) S20x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x20x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x20x256 : Shape := ⟨3, ![16384, 20, 256]⟩
abbrev S256x256 : Shape := ⟨2, ![256, 256]⟩
abbrev S20x20 : Shape := ⟨2, ![20, 20]⟩
abbrev S16384x20x20 : Shape := ⟨3, ![16384, 20, 20]⟩
abbrev S_ : Shape := ⟨0, ![]⟩
abbrev S1x20x20 : Shape := ⟨3, ![1, 20, 20]⟩
abbrev S16384x20 : Shape := ⟨2, ![16384, 20]⟩
abbrev S16384x20x1 : Shape := ⟨3, ![16384, 20, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x20x256, .f32⟩
  | .hbm, ⟨1, _⟩ => ⟨S16384x20x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S20x20, .f32⟩
  | .hbm, ⟨6, _⟩ => ⟨S16384x20x256, .f32⟩
  | .hbm, ⟨7, _⟩ => ⟨S16384x20x256, .f32⟩
  | .hbm, ⟨8, _⟩ => ⟨S16384x20x256, .f32⟩
  | .hbm, ⟨9, _⟩ => ⟨S16384x20x20, .f32⟩
  | .hbm, ⟨10, _⟩ => ⟨S_, .f32⟩
  | .hbm, ⟨11, _⟩ => ⟨S_, .f32⟩
  | .hbm, ⟨12, _⟩ => ⟨S16384x20x20, .f32⟩
  | .hbm, ⟨13, _⟩ => ⟨S16384x20x20, .f32⟩
  | .hbm, ⟨14, _⟩ => ⟨S1x20x20, .f32⟩
  | .hbm, ⟨15, _⟩ => ⟨S16384x20x20, .f32⟩
  | .hbm, ⟨16, _⟩ => ⟨S16384x20x20, .f32⟩
  | .hbm, ⟨17, _⟩ => ⟨S_, .f32⟩
  | .hbm, ⟨18, _⟩ => ⟨S16384x20, .f32⟩
  | .hbm, ⟨19, _⟩ => ⟨S_, .f32⟩
  | .hbm, ⟨20, _⟩ => ⟨S16384x20, .f32⟩
  | .hbm, ⟨21, _⟩ => ⟨S16384x20, .f32⟩
  | .hbm, ⟨22, _⟩ => ⟨S16384x20x1, .f32⟩
  | .hbm, ⟨23, _⟩ => ⟨S16384x20x20, .f32⟩
  | .hbm, ⟨24, _⟩ => ⟨S16384x20x20, .f32⟩
  | .hbm, ⟨25, _⟩ => ⟨S16384x20x20, .f32⟩
  | .hbm, ⟨26, _⟩ => ⟨S_, .f32⟩
  | .hbm, ⟨27, _⟩ => ⟨S16384x20, .f32⟩
  | .hbm, ⟨28, _⟩ => ⟨S16384x20x1, .f32⟩
  | .hbm, ⟨29, _⟩ => ⟨S16384x20x20, .f32⟩
  | .hbm, ⟨30, _⟩ => ⟨S16384x20x20, .f32⟩
  | .hbm, ⟨31, _⟩ => ⟨S16384x20x256, .f32⟩
  | _, _ => ⟨S16384x20x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S16384x20x20 : S_.BroadcastsInDim S16384x20x20 (![] : Fin 0 → Fin S16384x20x20.rank)
  bcast_S20x20_S1x20x20_1_2 : S20x20.BroadcastsInDim S1x20x20 (![1, 2] : Fin 2 → Fin S1x20x20.rank)
  bcast_S1x20x20_S16384x20x20_0_1_2 : S1x20x20.BroadcastsInDim S16384x20x20 (![0, 1, 2] : Fin 3 → Fin S16384x20x20.rank)
  reducesTo_S16384x20x20_S16384x20_d2 : S16384x20x20.ReducesTo [2] S16384x20
  h_S_ : 0 < S_.numel
  bcast_S_S16384x20 : S_.BroadcastsInDim S16384x20 (![] : Fin 0 → Fin S16384x20.rank)
  bcast_S16384x20_S16384x20x1_0_1 : S16384x20.BroadcastsInDim S16384x20x1 (![0, 1] : Fin 2 → Fin S16384x20x1.rank)
  bcast_S16384x20x1_S16384x20x20_0_1_2 : S16384x20x1.BroadcastsInDim S16384x20x20 (![0, 1, 2] : Fin 3 → Fin S16384x20x20.rank)
  dot_S16384x20x256_S256x256_S16384x20x256_2_1_01_0_n_n_wf : DotDims.WF S16384x20x256 S256x256 S16384x20x256 [2] [1] [0, 1] [0] [] []
  dot_S16384x20x256_S16384x20x256_S16384x20x20_2_2_1_1_0_0_wf : DotDims.WF S16384x20x256 S16384x20x256 S16384x20x20 [2] [2] [1] [1] [0] [0]
  dot_S16384x20x20_S16384x20x256_S16384x20x256_2_1_1_2_0_0_wf : DotDims.WF S16384x20x20 S16384x20x256 S16384x20x256 [2] [1] [1] [2] [0] [0]

variable [Facts₀]

def dot_S16384x20x256_S256x256_S16384x20x256_2_1_01_0_n_n : DotDims S16384x20x256 S256x256 S16384x20x256 where
  lhsContracting := [2]
  rhsContracting := [1]
  lhsNonContracting := [0, 1]
  rhsNonContracting := [0]
  lhsBatch := []
  rhsBatch := []
  wf := dot_S16384x20x256_S256x256_S16384x20x256_2_1_01_0_n_n_wf
def dot_S16384x20x256_S16384x20x256_S16384x20x20_2_2_1_1_0_0 : DotDims S16384x20x256 S16384x20x256 S16384x20x20 where
  lhsContracting := [2]
  rhsContracting := [2]
  lhsNonContracting := [1]
  rhsNonContracting := [1]
  lhsBatch := [0]
  rhsBatch := [0]
  wf := dot_S16384x20x256_S16384x20x256_S16384x20x20_2_2_1_1_0_0_wf
def dot_S16384x20x20_S16384x20x256_S16384x20x256_2_1_1_2_0_0 : DotDims S16384x20x20 S16384x20x256 S16384x20x256 where
  lhsContracting := [2]
  rhsContracting := [1]
  lhsNonContracting := [1]
  rhsNonContracting := [2]
  lhsBatch := [0]
  rhsBatch := [0]
  wf := dot_S16384x20x20_S16384x20x256_S16384x20x256_2_1_1_2_0_0_wf

class Facts : Prop extends Facts₀ where

variable [Facts]
-- ==== Proof.Spec.lean ====
/-
  The function both programs compute, batch by batch, on the extended reals.

  For one batch element, with rows `x₁, x₂ : Fin 20 → Fin 256 → EReal` and weight matrices `wq, wk, wv`:
  the projections q = x₁·wqᵀ, k = x₂·wkᵀ, v = x₂·wvᵀ; the logits L t s = sc (Σ_h q t h · k s h) + mask t s, with
  `sc` the scaling of a score; a row's maximum M t (the fold of max from the bottom element); the unnormalised
  weights P t s = exp (L t s − M t); the weights P t s / Σ_s' P t s'; and the result Σ_s weight t s · v s h.
  The two programs scale a score differently — one multiplies by the word for 1/16, the other divides by the square
  root of the word for 256 — and `scale_eq` says these are one function on every extended real.
-/
import Idealize.ShloMosaic.PureOps.Ideal.Laws
import Idealize.ShloMosaic.Lib.ValueIdx

noncomputable section

namespace Cert.Attn

open Idealize.ShloMosaic Idealize.ShloMosaic.ValueIdx
open scoped BigOperators

/-- Rows times a weight matrix's transpose: (x · wᵀ) t h = Σ_c x t c · w h c. -/
def rowsDot (x : Fin 20 → Fin 256 → EReal) (w : Fin 256 → Fin 256 → EReal) : Fin 20 → Fin 256 → EReal :=
  fun t h => ∑ c : Fin 256, x t c * w h c

/-- The masked, scaled scores. -/
def logits (sc : EReal → EReal) (q k : Fin 20 → Fin 256 → EReal) (msk : Fin 20 → Fin 20 → EReal) : Fin 20 → Fin 20 → EReal :=
  fun t s => sc (∑ h : Fin 256, q t h * k s h) + msk t s

/-- A row's maximum, folded from `ninf`. -/
def rowMax (ninf : EReal) (L : Fin 20 → EReal) : EReal := (Finset.univ : Finset (Fin 20)).fold max ninf L

/-- The softmax weights of each row of logits. -/
def weights (ninf : EReal) (L : Fin 20 → Fin 20 → EReal) : Fin 20 → Fin 20 → EReal :=
  fun t s => Ideal.div (Ideal.exp (L t s - rowMax ninf (L t))) (∑ s' : Fin 20, Ideal.exp (L t s' - rowMax ninf (L t)))

/-- The weighted mix of the value rows. -/
def mix (A : Fin 20 → Fin 20 → EReal) (v : Fin 20 → Fin 256 → EReal) : Fin 20 → Fin 256 → EReal :=
  fun t h => ∑ s : Fin 20, A t s * v s h

/-- One batch element's attention from its projected rows. -/
def core (sc : EReal → EReal) (ninf : EReal) (q k v : Fin 20 → Fin 256 → EReal) (msk : Fin 20 → Fin 20 → EReal) :
    Fin 20 → Fin 256 → EReal :=
  mix (weights ninf (logits sc q k msk)) v

/-- One batch element's result from its input rows and the three weight matrices. -/
def head (sc : EReal → EReal) (ninf : EReal) (x₁ x₂ : Fin 20 → Fin 256 → EReal) (wq wk wv : Fin 256 → Fin 256 → EReal)
    (msk : Fin 20 → Fin 20 → EReal) : Fin 20 → Fin 256 → EReal :=
  core sc ninf (rowsDot x₁ wq) (rowsDot x₂ wk) (rowsDot x₂ wv) msk

/-- The bottom word, the start of every row maximum. -/
abbrev ninf : EReal := Ideal.ofBits .f32 0xFF800000#32

/-- Scaling a score by the word 0x3D800000. -/
def scMul (x : EReal) : EReal := x * Ideal.ofBits .f32 0x3D800000#32
/-- Scaling a score by dividing by the square root of the word 0x43800000. -/
def scDiv (x : EReal) : EReal := Ideal.div x (Ideal.sqrt (Ideal.ofBits .f32 0x43800000#32))

/-- The word 0x3D800000 denotes 1/16. -/
theorem ofBits_sixteenth : Ideal.ofBits .f32 0x3D800000#32 = ((1 / 16 : ℝ) : EReal) := by
  simp [Ideal.ofBits, Ideal.ieee, -EReal.coe_mul]; norm_num

/-- The word 0x43800000 denotes 256. -/
theorem ofBits_256 : Ideal.ofBits .f32 0x43800000#32 = ((256 : ℝ) : EReal) := by
  simp [Ideal.ofBits, Ideal.ieee, -EReal.coe_mul]; norm_num

/-- The square root of 256 is 16. -/
theorem sqrt_256 : Ideal.sqrt ((256 : ℝ) : EReal) = ((16 : ℝ) : EReal) := by
  rw [Ideal.sqrt_coe, if_neg (by norm_num)]
  congr 1
  rw [show (256 : ℝ) = 16 ^ 2 by norm_num]
  exact Real.sqrt_sq (by norm_num)

/-- Dividing by √256 is multiplying by 1/16, on every extended real. -/
theorem scale_eq : scDiv = scMul := by
  funext x
  unfold scDiv scMul
  rw [ofBits_256, sqrt_256, ofBits_sixteenth, Ideal.div_coe (by norm_num : (16 : ℝ) ≠ 0)]

/-- The whole result array: batch element `i 0`'s attention at row `i 1`, column `i 2`. -/
def G (sc : EReal → EReal) (f₁ f₂ : (⟨3, ![16384, 20, 256]⟩ : Shape).Idx → EReal)
    (wq wk wv : (⟨2, ![256, 256]⟩ : Shape).Idx → EReal) (msk : (⟨2, ![20, 20]⟩ : Shape).Idx → EReal) :
    (⟨3, ![16384, 20, 256]⟩ : Shape).Idx → EReal :=
  fun i => head sc ninf (fun t c => f₁ (ix3 (i 0) t c)) (fun t c => f₂ (ix3 (i 0) t c))
    (fun h c => wq (ix2 h c)) (fun h c => wk (ix2 h c)) (fun h c => wv (ix2 h c)) (fun t s => msk (ix2 t s)) (i 1) (i 2)

end Cert.Attn

end
-- ==== Proof.LibContract.lean ====
/-
  A contraction over ONE axis read as a sum over that axis's coordinate.

  For any dimension-number record whose contraction shape has rank one and extent `k`, the sum over the contraction
  index of the operands' products is the sum over `i : Fin k` of the products at the operand indices the caller names,
  provided the record's operand indices at a contraction index whose one coordinate is `i` are those. The matrix unit's
  product into a zero accumulator and the host's dot_general follow. Library imports only.
-/
import Idealize.ShloMosaic.PureOps.Ideal.Laws
import Idealize.ShloMosaic.Lib.ValueIdx

noncomputable section

namespace Cert.LibContract

open Idealize.ShloMosaic Idealize.ShloMosaic.ValueIdx
open scoped BigOperators

variable {sl sr so : Shape} (D : DotDims sl sr so) (k : ℕ) (hr : D.contr.rank = 1) (hs : D.contr.size ⟨0, by omega⟩ = k)

include hr hs

/-- The sum over the contraction index, re-indexed by the one coordinate. -/
theorem sum_contr1 (lhs : sl.Idx → EReal) (rhs : sr.Idx → EReal) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    (∑ c : D.contr.Idx, lhs (D.lhsIdx j c) * rhs (D.rhsIdx j c)) = ∑ i : Fin k, lhs (li i) * rhs (ri i) := by
  rw [← Equiv.sum_comp (contrEquiv1 D k hr hs).symm]
  refine Finset.sum_congr rfl fun i _ => ?_
  have hk := contrEquiv1_symm_val D k hr hs i
  rw [hl _ i hk, hrr _ i hk]

/-- The matrix unit's product into a zero accumulator at an output index. -/
theorem matmul_zero_apply {φ₁ φ₂ : FTy} (prec : Option ContractPrecision) (lhs : FVec Ideal sl φ₁) (rhs : FVec Ideal sr φ₂)
    (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.matmul D prec lhs rhs (constant so .f32 0x00000000#32) j = ∑ i : Fin k, lhs (li i) * rhs (ri i) :=
  (Ideal.matmul_constant_zero_apply D prec lhs rhs j).trans (sum_contr1 D k hr hs lhs rhs j li ri hl hrr)

/-- The host's dot_general at an output index. -/
theorem dotGeneral_apply {φ₁ φ₂ : FTy} (prec : Option ContractPrecision) (sched : HostSchedule) (lhs : FVec Ideal sl φ₁)
    (rhs : FVec Ideal sr φ₂) (j : so.Idx) (li : Fin k → sl.Idx) (ri : Fin k → sr.Idx)
    (hl : ∀ (q : D.contr.Idx) (i : Fin k), (q ⟨0, by omega⟩).val = i.val → D.lhsIdx j q = li i)
    (hrr : ∀ (q : D.contr.Idx) (i : Fin k), (q ⟨0, by omega⟩).val = i.val → D.rhsIdx j q = ri i) :
    FloatOps.dotGeneral D prec sched lhs rhs j = ∑ i : Fin k, lhs (li i) * rhs (ri i) :=
  (Ideal.dotGeneral_apply D prec sched lhs rhs j).trans (sum_contr1 D k hr hs lhs rhs j li ri hl hrr)

end Cert.LibContract

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibRowReduce.lean ====
/-
  Reductions over the LAST axis, read at coordinates.

  A matrix `[a, b]` reduced over its lane axis gives, at row `r`, the sum / the fold of `max` / the fold of `min` over
  `k : Fin b` of the entry `(r, k)`; a rank-3 array `[n0, n1, n2]` reduced on the host over its last axis gives, at
  `(i, j)`, the fold of the reduce's body from the initial value over `k : Fin n2` of the entry `(i, j, k)`. The library
  states these over the reduced index with the coordinate re-inserted (`Shape.Reduces.lift`); here the re-inserted
  index is written by its coordinates, so that both readings of one row meet as folds of one function on `Fin b`.
  Library imports only.
-/
import Idealize.ShloMosaic.PureOps.Ideal.Laws
import Idealize.ShloMosaic.Lib.ValueIdx

noncomputable section

namespace Cert.LibRowReduce

open Idealize.ShloMosaic Idealize.ShloMosaic.ValueIdx

variable {φ : FTy}

/-- Row `r` with lane `k` put back is the entry `(r, k)`. -/
theorem lift_row {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- A lane sum of a matrix at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A lane maximum of a matrix at row `r`: the fold of `max` from the accumulator's value over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) fun k => src (ix2 r k) :=
  (Ideal.multiReduction_maximumf_single src acc h hφ hacc (ix1 r)).trans
    (congrArg (fun f => Finset.fold max (Ideal.ofBits φ acc) f (Finset.univ : Finset (Fin b)))
      (funext fun k => congrArg src (lift_row h r k)))

/-- A lane minimum of a matrix at row `r`: the fold of `min` from the accumulator's value over the row's entries. -/
theorem multiReduction_min_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) fun k => src (ix2 r k) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- Index `(i, j)` with the last coordinate `k` put back is the entry `(i, j, k)`. -/
theorem lift_last3 {n0 n1 n2 : ℕ} (h : (⟨3, ![n0, n1, n2]⟩ : Shape).Reduces [2] ⟨2, ![n0, n1]⟩) (i : Fin n0) (j : Fin n1)
    (k : Fin n2) : h.lift (ix2 i j) k = ix3 i j k := by
  funext c; apply Fin.ext
  fin_cases c <;> rfl

/-- The host's reduce of a rank-3 array over its last axis by a commutative, associative body, at `(i, j)`: the fold from
    the initial value over the entries `(i, j, k)`. -/
theorem hostReduce_last3 {α : Type} {n0 n1 n2 : ℕ} {u : Shape} (f : α → α → α) [Std.Commutative f] [Std.Associative f]
    (x : (⟨3, ![n0, n1, n2]⟩ : Shape).Idx → α) (init : u.Idx → α)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (i : Fin n0) (j : Fin n1) :
    Host.reduce f x init h' hu (ix2 i j)
      = (Finset.univ : Finset (Fin n2)).fold f (init (Shape.Idx.first hu)) fun k => x (ix3 i j k) :=
  (Host.reduce_eq_fold_single f x init h' h hu (ix2 i j)).trans
    (congrArg (fun g => Finset.fold f (init (Shape.Idx.first hu)) g (Finset.univ : Finset (Fin n2)))
      (funext fun k => congrArg x (lift_last3 h i j k)))

/-- The host's float sum of a rank-3 array over its last axis, at `(i, j)`: the initial value plus the entries' sum. -/
theorem hostReduceAdd_last3 {n0 n1 n2 : ℕ} (x : (⟨3, ![n0, n1, n2]⟩ : Shape).Idx → EReal) (init : EReal)
    (h' : (⟨3, ![n0, n1, n2]⟩ : Shape).ReducesTo [2] ⟨2, ![n0, n1]⟩) (h : (⟨3, ![n0, n1, n2]⟩ : Shape).Reduces [2] ⟨2, ![n0, n1]⟩)
    (i : Fin n0) (j : Fin n1) :
    Ideal.hostReduceAdd h' x init (ix2 i j) = init + ∑ k : Fin n2, x (ix3 i j k) :=
  (Ideal.hostReduceAdd_single h' h x init (ix2 i j)).trans
    (congrArg (init + ·) (Finset.sum_congr rfl fun k _ => congrArg x (lift_last3 h i j k)))

end Cert.LibRowReduce

end
-- ==== Proof.KerBlock.lean ====
/-
  What the kernel's body stores for one block, read at an entry.

  A block holds 64 batch elements. Its inputs are 1280 = 64·20 flattened feature rows (twice), the transposed query
  weights [256, 256], the transposed key and value weights side by side [256, 512], and the mask [20, 20]. The body
  multiplies the rows by the weights, regroups the 1280 rows as 64 × 20, cuts the key and value halves apart, and per
  batch element forms the scores Σ_h q t h · k s h, scales them, adds the mask, takes each row's maximum, exponentiates
  the differences, normalises by the row sums, and mixes the value rows. Read at batch element `b`, row `t`, column
  `h`, that is `Attn.head` of rows `b·20 + t'` of the two feature blocks and the three weight matrices.
-/
import proofs.«116594_j61349312856384_2_alg».proof.Proof.Gen.KernelIdeal.Skeleton
import proofs.«116594_j61349312856384_2_alg».proof.Proof.Spec
import proofs.«116594_j61349312856384_2_alg».proof.Proof.LibContract
import proofs.«116594_j61349312856384_2_alg».proof.Proof.LibDot
import proofs.«116594_j61349312856384_2_alg».proof.Proof.LibRowReduce
import Idealize.ShloMosaic.Lib.Pipeline.Value
import Idealize.ShloMosaic.Lib.ValueLayout

noncomputable section

namespace Cert.KernelIdeal.Block

open Cert.KernelIdeal Cert.KernelIdeal.Gen Idealize.ShloMosaic Idealize.ShloMosaic.ValueIdx Cert.Attn
open scoped BigOperators

/-! ## The four products' dimension numbers -/

abbrev D1 : DotDims S1280x256 S256x256 S1280x256 := dot_S1280x256_S256x256_S1280x256_1_0_0_1_n_n
abbrev D2 : DotDims S1280x256 S256x512 S1280x512 := dot_S1280x256_S256x512_S1280x512_1_0_0_1_n_n
abbrev D3 : DotDims S64x20x256 S64x20x256 S64x20x20 := dot_S64x20x256_S64x20x256_S64x20x20_2_2_1_1_0_0
abbrev D4 : DotDims S64x20x20 S64x20x256 S64x20x256 := dot_S64x20x20_S64x20x256_S64x20x256_2_1_1_2_0_0

theorem r1 : D1.contr.rank = 1 := rfl
theorem s1 : D1.contr.size ⟨0, by rw [r1]; exact Nat.one_pos⟩ = 256 := rfl
theorem r2 : D2.contr.rank = 1 := rfl
theorem s2 : D2.contr.size ⟨0, by rw [r2]; exact Nat.one_pos⟩ = 256 := rfl
theorem r3 : D3.contr.rank = 1 := rfl
theorem s3 : D3.contr.size ⟨0, by rw [r3]; exact Nat.one_pos⟩ = 256 := rfl
theorem r4 : D4.contr.rank = 1 := rfl
theorem s4 : D4.contr.size ⟨0, by rw [r4]; exact Nat.one_pos⟩ = 20 := rfl

/-- Scores: the left operand is read at (b, t, i), -/
theorem l3 (b : Fin 64) (t s : Fin 20) (q : D3.contr.Idx) (i : Fin 256) (h : (q ⟨0, by rw [r3]; exact Nat.one_pos⟩).val = i.val) :
    D3.lhsIdx (ix3 b t s) q = ix3 b t i := funext fun ax => Fin.ext (by
      match ax with
      | ⟨0, _⟩ => rfl
      | ⟨1, _⟩ => rfl
      | ⟨2, _⟩ => exact h)
/-- the right operand at (b, s, i). -/
theorem rh3 (b : Fin 64) (t s : Fin 20) (q : D3.contr.Idx) (i : Fin 256) (h : (q ⟨0, by rw [r3]; exact Nat.one_pos⟩).val = i.val) :
    D3.rhsIdx (ix3 b t s) q = ix3 b s i := funext fun ax => Fin.ext (by
      match ax with
      | ⟨0, _⟩ => rfl
      | ⟨1, _⟩ => rfl
      | ⟨2, _⟩ => exact h)
/-- Mixing: the weights are read at (b, t, i), -/
theorem l4 (b : Fin 64) (t : Fin 20) (hh : Fin 256) (q : D4.contr.Idx) (i : Fin 20) (h : (q ⟨0, by rw [r4]; exact Nat.one_pos⟩).val = i.val) :
    D4.lhsIdx (ix3 b t hh) q = ix3 b t i := funext fun ax => Fin.ext (by
      match ax with
      | ⟨0, _⟩ => rfl
      | ⟨1, _⟩ => rfl
      | ⟨2, _⟩ => exact h)
/-- the values at (b, i, h). -/
theorem rh4 (b : Fin 64) (t : Fin 20) (hh : Fin 256) (q : D4.contr.Idx) (i : Fin 20) (h : (q ⟨0, by rw [r4]; exact Nat.one_pos⟩).val = i.val) :
    D4.rhsIdx (ix3 b t hh) q = ix3 b i hh := funext fun ax => Fin.ext (by
      match ax with
      | ⟨0, _⟩ => rfl
      | ⟨1, _⟩ => exact h
      | ⟨2, _⟩ => rfl)

/-! ## Coordinates -/

/-- Row `t` of batch element `b` among the block's 1280 flattened rows. -/
def row (b : Fin 64) (t : Fin 20) : Fin 1280 := ⟨b.val * 20 + t.val, by omega⟩
/-- Column `h` of the key half, -/
def colK (h : Fin 256) : Fin 512 := ⟨h.val, by omega⟩
/-- and of the value half, of the side-by-side weights. -/
def colV (h : Fin 256) : Fin 512 := ⟨256 + h.val, by omega⟩

/-! ## The body's stages -/

/-- Rows times the [256, 256] weights, regrouped per batch element. -/
def proj256 (x : Vec Ideal S1280x256 .f32) (w : Vec Ideal S256x256 .bf16) : FVec Ideal S64x20x256 .f32 :=
  have v1 : FVec Ideal S1280x256 .f32 := shapeCast S1280x256 x shapeCasts_S1280x256_S1280x256
  have v2 : FVec Ideal S1280x256 .bf16 := truncf .bf16 v1 bitsLt_bf16_f32
  have v7 : FVec Ideal S256x256 .bf16 := shapeCast S256x256 w shapeCasts_S256x256_S256x256
  have v10 : FVec Ideal S1280x256 .f32 := matmul D1 none v2 v7 (constant S1280x256 .f32 0x00000000#32)
  shapeCast S64x20x256 v10 shapeCasts_S1280x256_S64x20x256

/-- Rows times the [256, 512] weights, regrouped per batch element. -/
def proj512 (x : Vec Ideal S1280x256 .f32) (w : Vec Ideal S256x512 .bf16) : FVec Ideal S64x20x512 .f32 :=
  have v4 : FVec Ideal S1280x256 .f32 := shapeCast S1280x256 x shapeCasts_S1280x256_S1280x256
  have v5 : FVec Ideal S1280x256 .bf16 := truncf .bf16 v4 bitsLt_bf16_f32
  have v9 : FVec Ideal S256x512 .bf16 := shapeCast S256x512 w shapeCasts_S256x512_S256x512
  have v11 : FVec Ideal S1280x512 .f32 := matmul D2 none v5 v9 (constant S1280x512 .f32 0x00000000#32)
  shapeCast S64x20x512 v11 shapeCasts_S1280x512_S64x20x512

/-- The key half, -/
def keys (kv : FVec Ideal S64x20x512 .f32) : FVec Ideal S64x20x256 .f32 :=
  extractStridedSlice S64x20x256 ![0, 0, 0] kv slices_S64x20x512_o0_0_0_S64x20x256
/-- and the value half. -/
def vals (kv : FVec Ideal S64x20x512 .f32) : FVec Ideal S64x20x256 .f32 :=
  extractStridedSlice S64x20x256 ![0, 0, 256] kv slices_S64x20x512_o0_0_256_S64x20x256

/-- The scaled, masked scores. -/
def lg (q k : FVec Ideal S64x20x256 .f32) (x4 : Vec Ideal S20x20 .f32) : FVec Ideal S64x20x20 .f32 :=
  have v16 : FVec Ideal S64x20x256 .bf16 := truncf .bf16 q bitsLt_bf16_f32
  have v17 : FVec Ideal S64x20x256 .bf16 := truncf .bf16 k bitsLt_bf16_f32
  have v18 : FVec Ideal S64x20x20 .f32 := matmul D3 none v16 v17 (constant S64x20x20 .f32 0x00000000#32)
  have cst_9 : Ideal .f32 := Scalar.ofBits .f32 0x3D800000#32
  have v19 : FVec Ideal S64x20x20 .f32 := broadcast S64x20x20 cst_9
  have v20 : FVec Ideal S64x20x20 .f32 := mulf v18 v19
  have v22 : FVec Ideal S1x20x20 .f32 := shapeCast S1x20x20 x4 shapeCasts_S20x20_S1x20x20
  have v23 : FVec Ideal S64x20x20 .f32 := broadcastTo S64x20x20 v22 broadcasts_S1x20x20_S64x20x20
  addf v20 v23

/-- A [64, 20] array as a column repeated along the last axis. -/
def spread (M : FVec Ideal S64x20 .f32) : FVec Ideal S64x20x20 .f32 :=
  have v26 : FVec Ideal S64x20x1 .f32 := shapeCast S64x20x1 M shapeCasts_S64x20_S64x20x1
  broadcastTo S64x20x20 v26 broadcasts_S64x20x1_S64x20x20

/-- Each row's maximum. -/
def rmax (L : FVec Ideal S64x20x20 .f32) : FVec Ideal S64x20 .f32 :=
  multiReduction .maximumf [2] S64x20 L 0xFF800000#32 reduces_S64x20x20_S64x20 (.inl rfl) rfl

/-- Each row's sum. -/
def rsum (P : FVec Ideal S64x20x20 .f32) : FVec Ideal S64x20 .f32 :=
  multiReduction .add [2] S64x20 P 0x00000000#32 reduces_S64x20x20_S64x20 (.inl rfl) rfl

/-- The exponentials of the scores less their row's maximum. -/
def expo (L : FVec Ideal S64x20x20 .f32) : FVec Ideal S64x20x20 .f32 := exp (subf L (spread (rmax L)))

/-- The normalised weights. -/
def sm (L : FVec Ideal S64x20x20 .f32) : FVec Ideal S64x20x20 .f32 := divf (expo L) (spread (rsum (expo L)))

/-- The weights times the values. -/
def pv (A : FVec Ideal S64x20x20 .f32) (v : FVec Ideal S64x20x256 .f32) : FVec Ideal S64x20x256 .f32 :=
  have v34 : FVec Ideal S64x20x20 .bf16 := truncf .bf16 A bitsLt_bf16_f32
  have v35 : FVec Ideal S64x20x256 .bf16 := truncf .bf16 v bitsLt_bf16_f32
  matmul D4 none v34 v35 (constant S64x20x256 .f32 0x00000000#32)

/-- The body's stored value is these stages composed. -/
theorem pay_eq (x0 x1 : Vec Ideal S1280x256 .f32) (x2 : Vec Ideal S256x256 .bf16) (x3 : Vec Ideal S256x512 .bf16)
    (x4 : Vec Ideal S20x20 .f32) :
    k0_pay1 x0 x1 x2 x3 x4 = pv (sm (lg (proj256 x0 x2) (keys (proj512 x1 x3)) x4)) (vals (proj512 x1 x3)) := rfl

/-! ## Each stage at an entry -/

theorem proj256_apply (x : Vec Ideal S1280x256 .f32) (w : Vec Ideal S256x256 .bf16) (b : Fin 64) (t : Fin 20) (h : Fin 256) :
    proj256 x w (ix3 b t h) = ∑ c : Fin 256, x (ix2 (row b t) c) * w (ix2 c h) := by
  unfold proj256
  refine (shapeCast_apply _ _ (ix3 b t h) (ix2 (row b t) h) ?_).trans ?_
  · rw [Shape.rowMajor_val_three, Shape.rowMajor_val_two]; rfl
  · refine (Cert.LibDot.matmul_zero_apply D1 r1 s1 (fun _ _ => rfl) (fun _ _ => rfl) (fun _ _ => rfl) (fun _ _ => rfl) none _ _ _ _).trans ?_
    refine Finset.sum_congr rfl fun c _ => ?_
    rw [truncf_apply, shapeCast_self, shapeCast_self]

theorem proj512_apply (x : Vec Ideal S1280x256 .f32) (w : Vec Ideal S256x512 .bf16) (b : Fin 64) (t : Fin 20) (j : Fin 512) :
    proj512 x w (ix3 b t j) = ∑ c : Fin 256, x (ix2 (row b t) c) * w (ix2 c j) := by
  unfold proj512
  refine (shapeCast_apply _ _ (ix3 b t j) (ix2 (row b t) j) ?_).trans ?_
  · rw [Shape.rowMajor_val_three, Shape.rowMajor_val_two]; rfl
  · refine (Cert.LibDot.matmul_zero_apply D2 r2 s2 (fun _ _ => rfl) (fun _ _ => rfl) (fun _ _ => rfl) (fun _ _ => rfl) none _ _ _ _).trans ?_
    refine Finset.sum_congr rfl fun c _ => ?_
    rw [truncf_apply, shapeCast_self, shapeCast_self]

theorem keys_apply (kv : FVec Ideal S64x20x512 .f32) (b : Fin 64) (s : Fin 20) (h : Fin 256) :
    keys kv (ix3 b s h) = kv (ix3 b s (colK h)) :=
  extractStridedSlice_apply _ _ _ _ _ (fun ax => by
    match ax with
    | ⟨0, _⟩ => show b.val = 0 + b.val; omega
    | ⟨1, _⟩ => show s.val = 0 + s.val; omega
    | ⟨2, _⟩ => show h.val = 0 + h.val; omega)

theorem vals_apply (kv : FVec Ideal S64x20x512 .f32) (b : Fin 64) (s : Fin 20) (h : Fin 256) :
    vals kv (ix3 b s h) = kv (ix3 b s (colV h)) :=
  extractStridedSlice_apply _ _ _ _ _ (fun ax => by
    match ax with
    | ⟨0, _⟩ => show b.val = 0 + b.val; omega
    | ⟨1, _⟩ => show s.val = 0 + s.val; omega
    | ⟨2, _⟩ => show 256 + h.val = 256 + h.val; rfl)

theorem lg_apply (q k : FVec Ideal S64x20x256 .f32) (x4 : Vec Ideal S20x20 .f32) (b : Fin 64) (t s : Fin 20) :
    lg q k x4 (ix3 b t s) = scMul (∑ h : Fin 256, q (ix3 b t h) * k (ix3 b s h)) + x4 (ix2 t s) := by
  show FloatOps.matmul D3 none (truncf .bf16 q bitsLt_bf16_f32) (truncf .bf16 k bitsLt_bf16_f32) (constant S64x20x20 .f32 0x00000000#32) (ix3 b t s)
        * Ideal.ofBits .f32 0x3D800000#32
      + broadcastTo S64x20x20 (shapeCast S1x20x20 x4 shapeCasts_S20x20_S1x20x20) broadcasts_S1x20x20_S64x20x20 (ix3 b t s) = _
  rw [Cert.LibContract.matmul_zero_apply D3 256 r3 s3 none _ _ (ix3 b t s) (fun i => ix3 b t i) (fun i => ix3 b s i) (l3 b t s) (rh3 b t s),
    broadcastTo_apply _ _ (ix3 b t s) (ix3 (0 : Fin 1) t s) (fun ax => by
      match ax with
      | ⟨0, _⟩ => rfl
      | ⟨1, _⟩ => rfl
      | ⟨2, _⟩ => rfl),
    shapeCast_ab_1ab_apply]
  rfl

theorem spread_apply (M : FVec Ideal S64x20 .f32) (b : Fin 64) (t s : Fin 20) : spread M (ix3 b t s) = M (ix2 b t) := by
  unfold spread
  refine (broadcastTo_apply _ _ (ix3 b t s) (ix3 b t (0 : Fin 1)) (fun ax => by
      match ax with
      | ⟨0, _⟩ => rfl
      | ⟨1, _⟩ => rfl
      | ⟨2, _⟩ => rfl)).trans ?_
  refine shapeCast_apply M _ (ix3 b t (0 : Fin 1)) (ix2 b t) ?_
  rw [Shape.rowMajor_val_three, Shape.rowMajor_val_two]
  show b.val * 20 + t.val = (b.val * 20 + t.val) * 1 + 0
  omega

theorem rmax_apply (L : FVec Ideal S64x20x20 .f32) (b : Fin 64) (t : Fin 20) :
    rmax L (ix2 b t) = rowMax ninf fun s => L (ix3 b t s) :=
  (Ideal.multiReduction_maximumf_single L _ reduces_S64x20x20_S64x20 _ _ (ix2 b t)).trans
    (congrArg (fun f => Finset.fold max ninf f (Finset.univ : Finset (Fin 20)))
      (funext fun k => congrArg L (Cert.LibRowReduce.lift_last3 reduces_S64x20x20_S64x20 b t k)))

theorem rsum_apply (P : FVec Ideal S64x20x20 .f32) (b : Fin 64) (t : Fin 20) :
    rsum P (ix2 b t) = ∑ s : Fin 20, P (ix3 b t s) :=
  (Ideal.multiReduction_add_single P _ reduces_S64x20x20_S64x20 _ _ (ix2 b t)).trans
    (Finset.sum_congr rfl fun k _ => congrArg P (Cert.LibRowReduce.lift_last3 reduces_S64x20x20_S64x20 b t k))

theorem expo_apply (L : FVec Ideal S64x20x20 .f32) (b : Fin 64) (t s : Fin 20) :
    expo L (ix3 b t s) = Ideal.exp (L (ix3 b t s) - rowMax ninf fun s' => L (ix3 b t s')) := by
  show Ideal.exp (L (ix3 b t s) - spread (rmax L) (ix3 b t s)) = _
  rw [spread_apply, rmax_apply]

theorem sm_apply (L : FVec Ideal S64x20x20 .f32) (b : Fin 64) (t s : Fin 20) :
    sm L (ix3 b t s) = weights ninf (fun t' s' => L (ix3 b t' s')) t s := by
  show Ideal.div (expo L (ix3 b t s)) (spread (rsum (expo L)) (ix3 b t s)) = _
  rw [spread_apply, rsum_apply, expo_apply]
  unfold weights
  exact congrArg (Ideal.div _) (Finset.sum_congr rfl fun s' _ => expo_apply L b t s')

theorem pv_apply (A : FVec Ideal S64x20x20 .f32) (v : FVec Ideal S64x20x256 .f32) (b : Fin 64) (t : Fin 20) (h : Fin 256) :
    pv A v (ix3 b t h) = ∑ s : Fin 20, A (ix3 b t s) * v (ix3 b s h) :=
  (Cert.LibContract.matmul_zero_apply D4 20 r4 s4 none _ _ (ix3 b t h) (fun i => ix3 b t i) (fun i => ix3 b i h) (l4 b t h) (rh4 b t h)).trans
    (Finset.sum_congr rfl fun i _ => by rw [truncf_apply, truncf_apply])

/-! ## The stored block at an entry -/

/-- Entry (b, t, h) of the stored block is the attention of batch element `b`'s rows. -/
theorem pay_apply (x0 x1 : Vec Ideal S1280x256 .f32) (x2 : Vec Ideal S256x256 .bf16) (x3 : Vec Ideal S256x512 .bf16)
    (x4 : Vec Ideal S20x20 .f32) (b : Fin 64) (t : Fin 20) (h : Fin 256) :
    k0_pay1 x0 x1 x2 x3 x4 (ix3 b t h)
      = head scMul ninf (fun t' c => x0 (ix2 (row b t') c)) (fun t' c => x1 (ix2 (row b t') c))
          (fun h' c => x2 (ix2 c h')) (fun h' c => x3 (ix2 c (colK h'))) (fun h' c => x3 (ix2 c (colV h')))
          (fun t' s => x4 (ix2 t' s)) t h := by
  rw [pay_eq, pv_apply]
  unfold head core mix
  refine Finset.sum_congr rfl fun s _ => ?_
  rw [sm_apply, vals_apply, proj512_apply]
  refine congrArg₂ (· * ·) (congrArg (fun L => weights ninf L t s) (funext fun t' => funext fun s' => ?_)) rfl
  rw [lg_apply]
  unfold logits rowsDot
  refine congrArg (fun z => scMul z + x4 (ix2 t' s')) (Finset.sum_congr rfl fun h' _ => ?_)
  rw [proj256_apply, keys_apply, proj512_apply]

end Cert.KernelIdeal.Block

end
-- ==== Proof.KerFinal.lean ====
/-
  From the blocks to the whole result array.

  Grid point `t` (of 256) handles batch elements 64·t … 64·t + 63. Its two feature blocks are rows
  1280·t … 1280·t + 1279 of the features flattened to [327680, 256], and flattened row 1280·t + 20·b + t' is row t' of
  batch element 64·t + b; the weight blocks are the whole transposed weights (the key and value weights side by side),
  so block entry (c, h) is the weight matrix at (h, c); the mask block is the whole mask. Hence what point `t` writes
  back is block `t` of the specification `Attn.G` of the argument arrays, the 256 blocks cover the result array (entry
  i lies in block i₀ / 64), and the array after the run is `Attn.G` everywhere.
-/
import proofs.«116594_j61349312856384_2_alg».proof.Proof.Gen.KernelIdeal.Value
import proofs.«116594_j61349312856384_2_alg».proof.Proof.KerBlock
import Idealize.ShloMosaic.Lib.Pipeline.Value
import Idealize.ShloMosaic.Lib.ValueLayout
import Idealize.ShloMosaic.Lib.StableHlo.Run

noncomputable section

namespace Cert.KernelIdeal.Final

open Cert.KernelIdeal Cert.KernelIdeal.Gen Idealize.ShloMosaic Idealize.ShloMosaic.TcCoe Idealize.SL.Sem
open Idealize.ShloMosaic.ValueIdx Cert.Attn Cert.KernelIdeal.Block
open Idealize.ShloMosaic.Pipeline (Dat)
open scoped BigOperators

variable (m : (ℓ : Loc nD τ sig) → Buf (Elt Ideal) ℓ) (ρ : Dev nD → PrngReg)

/-- The mask table as an array. -/
def maskK : S20x20.Idx → EReal := fun i => Ideal.ofBits .f32 (lit0 (S20x20.rowMajor i))

/-- The specification of the argument arrays as launched. -/
def Gk (c : Dev nD) : S16384x20x256.Idx → EReal :=
  G scMul (m ((c : Thread nD τ).loc main_arg0)) (m ((c : Thread nD τ).loc main_arg1)) (m ((c : Thread nD τ).loc main_arg2))
    (m ((c : Thread nD τ).loc main_arg3)) (m ((c : Thread nD τ).loc main_arg4)) maskK

/-! ## The arrays the host operations write before the region -/

theorem V_v6 (c : Dev nD) : (V m c main_v6 : S327680x256.Idx → EReal)
    = shapeCast S327680x256 (m ((c : Thread nD τ).loc main_arg0)) shapeCasts_S16384x20x256_S327680x256 := by
  dsimp only [Gen.V, Gen.hostOps0]; after_results; rfl

theorem V_v7 (c : Dev nD) : (V m c main_v7 : S327680x256.Idx → EReal)
    = shapeCast S327680x256 (m ((c : Thread nD τ).loc main_arg1)) shapeCasts_S16384x20x256_S327680x256 := by
  dsimp only [Gen.V, Gen.hostOps0]; after_results; rfl

theorem V_v1 (c : Dev nD) : (V m c main_v1 : S256x256.Idx → EReal)
    = truncf (F := Ideal) .bf16 (transpose S256x256 [1, 0] (m ((c : Thread nD τ).loc main_arg2) : FVec Ideal S256x256 .f32) transposes_S256x256_S256x256_1_0) bitsLt_bf16_f32 := by
  dsimp only [Gen.V, Gen.hostOps0]; after_results

theorem V_v5 (c : Dev nD) : (V m c main_v5 : S256x512.Idx → EReal)
    = truncf (F := Ideal) .bf16 (concatenate S256x512 1
        [⟨S256x256, (transpose S256x256 [1, 0] (m ((c : Thread nD τ).loc main_arg3) : FVec Ideal S256x256 .f32) transposes_S256x256_S256x256_1_0 : FVec Ideal S256x256 .f32)⟩,
         ⟨S256x256, (transpose S256x256 [1, 0] (m ((c : Thread nD τ).loc main_arg4) : FVec Ideal S256x256 .f32) transposes_S256x256_S256x256_1_0 : FVec Ideal S256x256 .f32)⟩]
        concatenates_S256x256_S256x256_S256x512_d1 : FVec Ideal S256x512 .f32) bitsLt_bf16_f32 := by
  dsimp only [Gen.V, Gen.hostOps0]; after_results

theorem V_cst (c : Dev nD) : (V m c main_cst : S20x20.Idx → EReal) = maskK := by
  dsimp only [Gen.V, Gen.hostOps0]; after_results; rfl

/-! ## The index maps, decided over the grid -/

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem lt_N (t : Fin cfg0.N) : t.val < 256 := lt_of_lt_of_eq t.isLt N_0

/-- Batch element `b` of grid point `t`. -/
def bidx (t : Fin cfg0.N) (b : Fin 64) : Fin 16384 := ⟨t.val * 64 + b.val, by have := lt_N t; omega⟩

/-! ## The input blocks read through their windows -/

theorem blk0_read (c : Dev nD) (t : Fin cfg0.N) (b : Fin 64) (t' : Fin 20) (c' : Fin 256) :
    (iblk m c 0 t : Vec Ideal S1280x256 .f32) (ix2 (row b t') c') = m ((c : Thread nD τ).loc main_arg0) (ix3 (bidx t b) t' c') := by
  obtain ⟨e0, e1, -⟩ := idx_facts t
  have ht := lt_N t
  have hemb : ((cfg0.win 0).blk t).view.emb (ix2 (row b t') c')
      = (ix2 (⟨t.val * 1280 + (b.val * 20 + t'.val), by omega⟩ : Fin 327680) c' : S327680x256.Idx) := by
    funext a; apply Fin.ext
    match a with
    | ⟨0, _⟩ => show win0_0.index t (0 : Fin 2) * 1280 + 1 * (b.val * 20 + t'.val) = t.val * 1280 + (b.val * 20 + t'.val); rw [e0]; omega
    | ⟨1, _⟩ => show win0_0.index t (1 : Fin 2) * 256 + 1 * c'.val = c'.val; rw [e1]; omega
  show V m c main_v6 (((cfg0.win 0).blk t).view.emb (ix2 (row b t') c')) = _
  rw [hemb, V_v6]
  refine shapeCast_apply _ _ _ (ix3 (bidx t b) t' c') ?_
  rw [Shape.rowMajor_val_three, Shape.rowMajor_val_two]
  show ((t.val * 64 + b.val) * 20 + t'.val) * 256 + c'.val = (t.val * 1280 + (b.val * 20 + t'.val)) * 256 + c'.val
  omega

theorem blk1_read (c : Dev nD) (t : Fin cfg0.N) (b : Fin 64) (t' : Fin 20) (c' : Fin 256) :
    (iblk m c 1 t : Vec Ideal S1280x256 .f32) (ix2 (row b t') c') = m ((c : Thread nD τ).loc main_arg1) (ix3 (bidx t b) t' c') := by
  obtain ⟨-, -, e0, e1, -⟩ := idx_facts t
  have ht := lt_N t
  have hemb : ((cfg0.win 1).blk t).view.emb (ix2 (row b t') c')
      = (ix2 (⟨t.val * 1280 + (b.val * 20 + t'.val), by omega⟩ : Fin 327680) c' : S327680x256.Idx) := by
    funext a; apply Fin.ext
    match a with
    | ⟨0, _⟩ => show win0_1.index t (0 : Fin 2) * 1280 + 1 * (b.val * 20 + t'.val) = t.val * 1280 + (b.val * 20 + t'.val); rw [e0]; omega
    | ⟨1, _⟩ => show win0_1.index t (1 : Fin 2) * 256 + 1 * c'.val = c'.val; rw [e1]; omega
  show V m c main_v7 (((cfg0.win 1).blk t).view.emb (ix2 (row b t') c')) = _
  rw [hemb, V_v7]
  refine shapeCast_apply _ _ _ (ix3 (bidx t b) t' c') ?_
  rw [Shape.rowMajor_val_three, Shape.rowMajor_val_two]
  show ((t.val * 64 + b.val) * 20 + t'.val) * 256 + c'.val = (t.val * 1280 + (b.val * 20 + t'.val)) * 256 + c'.val
  omega

theorem blk2_read (c : Dev nD) (t : Fin cfg0.N) (h c' : Fin 256) :
    (iblk m c 2 t : Vec Ideal S256x256 .bf16) (ix2 c' h) = m ((c : Thread nD τ).loc main_arg2) (ix2 h c') := by
  obtain ⟨-, -, -, -, e0, e1, -⟩ := idx_facts t
  have hemb : ((cfg0.win 2).blk t).view.emb (ix2 c' h) = (ix2 c' h : S256x256.Idx) := by
    funext a; apply Fin.ext
    match a with
    | ⟨0, _⟩ => show win0_2.index t (0 : Fin 2) * 256 + 1 * c'.val = c'.val; rw [e0]; omega
    | ⟨1, _⟩ => show win0_2.index t (1 : Fin 2) * 256 + 1 * h.val = h.val; rw [e1]; omega
  show V m c main_v1 (((cfg0.win 2).blk t).view.emb (ix2 c' h)) = _
  rw [hemb, V_v1, truncf_apply]
  exact transpose_ix2_apply _ _ c' h

theorem blk3_readK (c : Dev nD) (t : Fin cfg0.N) (h c' : Fin 256) :
    (iblk m c 3 t : Vec Ideal S256x512 .bf16) (ix2 c' (colK h)) = m ((c : Thread nD τ).loc main_arg3) (ix2 h c') := by
  obtain ⟨-, -, -, -, -, -, e0, e1, -⟩ := idx_facts t
  have hemb : ((cfg0.win 3).blk t).view.emb (ix2 c' (colK h)) = (ix2 c' (colK h) : S256x512.Idx) := by
    funext a; apply Fin.ext
    match a with
    | ⟨0, _⟩ => show win0_3.index t (0 : Fin 2) * 256 + 1 * c'.val = c'.val; rw [e0]; omega
    | ⟨1, _⟩ => show win0_3.index t (1 : Fin 2) * 512 + 1 * h.val = h.val; rw [e1]; omega
  show V m c main_v5 (((cfg0.win 3).blk t).view.emb (ix2 c' (colK h))) = _
  rw [hemb, V_v5, truncf_apply]
  refine (concatenate_pair_apply_left (t := S256x512) (s₁ := S256x256) (s₂ := S256x256) (1 : Fin 2) _ _ _ (ix2 c' (colK h)) rfl (ix2 c' h : S256x256.Idx) (fun ax => by
    match ax with
    | ⟨0, _⟩ => rfl
    | ⟨1, _⟩ => rfl)).trans ?_
  exact transpose_ix2_apply _ _ c' h

theorem blk3_readV (c : Dev nD) (t : Fin cfg0.N) (h c' : Fin 256) :
    (iblk m c 3 t : Vec Ideal S256x512 .bf16) (ix2 c' (colV h)) = m ((c : Thread nD τ).loc main_arg4) (ix2 h c') := by
  obtain ⟨-, -, -, -, -, -, e0, e1, -⟩ := idx_facts t
  have hemb : ((cfg0.win 3).blk t).view.emb (ix2 c' (colV h)) = (ix2 c' (colV h) : S256x512.Idx) := by
    funext a; apply Fin.ext
    match a with
    | ⟨0, _⟩ => show win0_3.index t (0 : Fin 2) * 256 + 1 * c'.val = c'.val; rw [e0]; omega
    | ⟨1, _⟩ => show win0_3.index t (1 : Fin 2) * 512 + 1 * (256 + h.val) = 256 + h.val; rw [e1]; omega
  show V m c main_v5 (((cfg0.win 3).blk t).view.emb (ix2 c' (colV h))) = _
  rw [hemb, V_v5, truncf_apply]
  refine (concatenate_pair_apply_right (t := S256x512) (s₁ := S256x256) (s₂ := S256x256) (1 : Fin 2) _ _ _ (ix2 c' (colV h)) rfl rfl (ix2 c' h : S256x256.Idx) (fun ax hne => by
    match ax with
    | ⟨0, _⟩ => rfl
    | ⟨1, _⟩ => exact absurd rfl hne) (by show h.val + 256 = 256 + h.val; omega)).trans ?_
  exact transpose_ix2_apply _ _ c' h

theorem blk4_read (c : Dev nD) (t : Fin cfg0.N) (t' s : Fin 20) :
    (iblk m c 4 t : Vec Ideal S20x20 .f32) (ix2 t' s) = maskK (ix2 t' s) := by
  obtain ⟨-, -, -, -, -, -, -, -, e0, e1, -⟩ := idx_facts t
  have hemb : ((cfg0.win 4).blk t).view.emb (ix2 t' s) = (ix2 t' s : S20x20.Idx) := by
    funext a; apply Fin.ext
    match a with
    | ⟨0, _⟩ => show win0_4.index t (0 : Fin 2) * 20 + 1 * t'.val = t'.val; rw [e0]; omega
    | ⟨1, _⟩ => show win0_4.index t (1 : Fin 2) * 20 + 1 * s.val = s.val; rw [e1]; omega
  show V m c main_cst (((cfg0.win 4).blk t).view.emb (ix2 t' s)) = _
  rw [hemb, V_cst]

/-! ## One point's block is a block of the specification -/

/-- Over variables: a stored block whose inputs are the stated rows and weights is, entry by entry, the specification at
    the entry's place in the result array. -/
theorem point_eq (x0 x1 : Vec Ideal S1280x256 .f32) (x2 : Vec Ideal S256x256 .bf16) (x3 : Vec Ideal S256x512 .bf16)
    (x4 : Vec Ideal S20x20 .f32) (f₁ f₂ : S16384x20x256.Idx → EReal) (wq wk wv : S256x256.Idx → EReal) (msk : S20x20.Idx → EReal)
    (β : Fin 64 → Fin 16384) (y : S64x20x256.Idx) (i : S16384x20x256.Idx)
    (hi0 : (i 0).val = (β (y 0)).val) (hi1 : (i 1).val = (y 1).val) (hi2 : (i 2).val = (y 2).val)
    (h0 : ∀ (b : Fin 64) (t : Fin 20) (c : Fin 256), x0 (ix2 (row b t) c) = f₁ (ix3 (β b) t c))
    (h1 : ∀ (b : Fin 64) (t : Fin 20) (c : Fin 256), x1 (ix2 (row b t) c) = f₂ (ix3 (β b) t c))
    (h2 : ∀ h c : Fin 256, x2 (ix2 c h) = wq (ix2 h c))
    (h3k : ∀ h c : Fin 256, x3 (ix2 c (colK h)) = wk (ix2 h c))
    (h3v : ∀ h c : Fin 256, x3 (ix2 c (colV h)) = wv (ix2 h c))
    (h4 : ∀ t s : Fin 20, x4 (ix2 t s) = msk (ix2 t s)) :
    k0_pay1 x0 x1 x2 x3 x4 y = G scMul f₁ f₂ wq wk wv msk i := by
  obtain ⟨b, t, h, rfl⟩ : ∃ (b : Fin 64) (t : Fin 20) (h : Fin 256), y = ix3 b t h := ⟨y 0, y 1, y 2, eq_ix3 y⟩
  obtain rfl : i = ix3 (β b) t h := funext fun a => Fin.ext (by
    match a with
    | ⟨0, _⟩ => exact hi0
    | ⟨1, _⟩ => exact hi1
    | ⟨2, _⟩ => exact hi2)
  rw [pay_apply]
  show _ = head scMul ninf (fun t' c => f₁ (ix3 (β b) t' c)) (fun t' c => f₂ (ix3 (β b) t' c)) (fun h' c => wq (ix2 h' c))
    (fun h' c => wk (ix2 h' c)) (fun h' c => wv (ix2 h' c)) (fun t' s => msk (ix2 t' s)) t h
  simp only [h0, h1, h2, h3k, h3v, h4]

theorem hz3 : (![0, 0, 0] : Fin 3 → Nat) = fun _ => 0 := funext fun a => by fin_cases a <;> rfl
theorem hz2 : (![0, 0] : Fin 2 → Nat) = fun _ => 0 := funext fun a => by fin_cases a <;> rfl

/-- What point `t` writes back is block `t` of the specification. -/
theorem flushed_eq (c : Dev nD) (t : Fin cfg0.N) :
    (dats m 0 c).flushed 5 t = ((cfg0.win 5).blk t).view.read (Elt Ideal) (Gk m c) := by
  rw [Cert.KernelIdeal.Value.flushed5]
  unfold out0_5
  rw [View.canon_unit_zero hz3]
  simp only [View.ld_unit_zero (S := S1280x256) hz2, View.ld_unit_zero (S := S256x256) hz2, View.ld_unit_zero (S := S256x512) hz2,
    View.ld_unit_zero (S := S20x20) hz2]
  obtain ⟨-, -, -, -, -, -, -, -, -, -, e0, e1, e2⟩ := idx_facts t
  funext j
  show k0_pay1 (iblk m c 0 t) (iblk m c 1 t) (iblk m c 2 t) (iblk m c 3 t) (iblk m c 4 t) j = Gk m c (((cfg0.win 5).blk t).view.emb j)
  refine point_eq (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) maskK (bidx t) j (((cfg0.win 5).blk t).view.emb j)
    ?_ ?_ ?_ (blk0_read m c t) (blk1_read m c t) (blk2_read m c t) (blk3_readK m c t) (blk3_readV m c t) (blk4_read m c t)
  · show win0_5.index t (0 : Fin 3) * 64 + 1 * (j 0).val = t.val * 64 + (j 0).val; rw [e0]; omega
  · show win0_5.index t (1 : Fin 3) * 20 + 1 * (j 1).val = (j 1).val; rw [e1]; omega
  · show win0_5.index t (2 : Fin 3) * 256 + 1 * (j 2).val = (j 2).val; rw [e2]; omega

/-! ## The blocks cover the array -/

theorem mem_blk (t : Fin cfg0.N) (i : S16384x20x256.Idx) :
    i ∈ ((cfg0.win 5).blk t).view.set ↔ ∀ a : Fin 3, win0_5.index t a * S64x20x256.size a ≤ (i a).val ∧ (i a).val < win0_5.index t a * S64x20x256.size a + S64x20x256.size a := by
  show i ∈ ((View.whole main_v8).slice (win0_5.rect t)).set ↔ _
  rw [View.set_slice_whole, Rect.mem_set_unit]
  exact Iff.rfl

theorem cover (i : S16384x20x256.Idx) : ∃ t : Fin cfg0.N, (cfg0.win 5).flush t = true ∧ i ∈ ((cfg0.win 5).blk t).view.set := by
  have hi0 : (i 0).val < 16384 := (i 0).isLt
  have hi1 : (i 1).val < 20 := (i 1).isLt
  have hi2 : (i 2).val < 256 := (i 2).isLt
  have hN : (i 0).val / 64 < cfg0.N := by rw [show cfg0.N = 256 from N_0]; omega
  obtain ⟨-, -, -, -, -, -, -, -, -, -, e0, e1, e2⟩ := idx_facts ⟨(i 0).val / 64, hN⟩
  refine ⟨⟨(i 0).val / 64, hN⟩, flush0_5 _, ?_⟩
  rw [mem_blk]
  intro a
  match a with
  | ⟨0, _⟩ =>
    show win0_5.index ⟨(i 0).val / 64, hN⟩ (0 : Fin 3) * 64 ≤ (i 0).val ∧ (i 0).val < win0_5.index ⟨(i 0).val / 64, hN⟩ (0 : Fin 3) * 64 + 64
    rw [e0]; show (i 0).val / 64 * 64 ≤ (i 0).val ∧ (i 0).val < (i 0).val / 64 * 64 + 64; omega
  | ⟨1, _⟩ =>
    show win0_5.index ⟨(i 0).val / 64, hN⟩ (1 : Fin 3) * 20 ≤ (i 1).val ∧ (i 1).val < win0_5.index ⟨(i 0).val / 64, hN⟩ (1 : Fin 3) * 20 + 20
    rw [e1]; omega
  | ⟨2, _⟩ =>
    show win0_5.index ⟨(i 0).val / 64, hN⟩ (2 : Fin 3) * 256 ≤ (i 2).val ∧ (i 2).val < win0_5.index ⟨(i 0).val / 64, hN⟩ (2 : Fin 3) * 256 + 256
    rw [e2]; omega

/-! ## The array after the run, and the run -/

theorem final (c : Dev nD) : (dats m 0 c).arrAt 5 cfg0.N = Gk m c :=
  (dats m 0 c).arrAt_eq_of_cover 5 (Gk m c) (fun t _ => flushed_eq m c t) cover

/-- Every weakly fair execution of the idealized kernel's @main terminates with the result array at the specification of
    the arguments as launched, the arguments unchanged. -/
theorem run : θ_run defs (onTc (τ := τ) (main (F := Ideal))) ⟨m, fun _ => 0, ρ⟩ fun r => ∀ c : Dev nD,
      r.2.mem ((c : Thread nD τ).loc main_v8) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Final

end
-- ==== Proof.RefRun.lean ====
/-
  The reference program's run, read back: its @main is a straight line of host operations, so every weakly fair
  execution terminates with the result buffer at the operations' composed term of the argument arrays as launched,
  and the arguments unchanged. The composed term is named `refTerm`: three projections, the batched scores, the
  division by the square root of the constant 256, the mask added, the row maximum, the exponentials, their row sums,
  the quotient, and the batched product with the value projection.
-/
import proofs.«116594_j61349312856384_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The mask table as an array. -/
def maskArr : (⟨S20x20, .f32⟩ : BufTy).Contents (Elt F) := fun i => FloatOps.ofBits .f32 (lit0 (S20x20.rowMajor i))

/-- @main's 28 operations, in order. -/
abbrev ops : List (HloOp τ sig (Elt F)) :=
  [ nullary main_cst (fun i => FloatOps.ofBits .f32 (lit0 (S20x20.rowMajor i))),
    binary main_arg0 main_arg2 main_v0 ((fun l r => Host.dotGeneral dot_S16384x20x256_S256x256_S16384x20x256_2_1_01_0_n_n none l r) : (⟨S16384x20x256, .f32⟩ : BufTy).Contents (Elt F) → (⟨S256x256, .f32⟩ : BufTy).Contents (Elt F) → (⟨S16384x20x256, .f32⟩ : BufTy).Contents (Elt F)),
    binary main_arg1 main_arg3 main_v1 ((fun l r => Host.dotGeneral dot_S16384x20x256_S256x256_S16384x20x256_2_1_01_0_n_n none l r) : (⟨S16384x20x256, .f32⟩ : BufTy).Contents (Elt F) → (⟨S256x256, .f32⟩ : BufTy).Contents (Elt F) → (⟨S16384x20x256, .f32⟩ : BufTy).Contents (Elt F)),
    binary main_arg1 main_arg4 main_v2 ((fun l r => Host.dotGeneral dot_S16384x20x256_S256x256_S16384x20x256_2_1_01_0_n_n none l r) : (⟨S16384x20x256, .f32⟩ : BufTy).Contents (Elt F) → (⟨S256x256, .f32⟩ : BufTy).Contents (Elt F) → (⟨S16384x20x256, .f32⟩ : BufTy).Contents (Elt F)),
    binary main_v0 main_v1 main_v3 ((fun l r => Host.dotGeneral dot_S16384x20x256_S16384x20x256_S16384x20x20_2_2_1_1_0_0 none l r) : (⟨S16384x20x256, .f32⟩ : BufTy).Contents (Elt F) → (⟨S16384x20x256, .f32⟩ : BufTy).Contents (Elt F) → (⟨S16384x20x20, .f32⟩ : BufTy).Contents (Elt F)),
    nullary main_cst_0 (constant S_ .f32 0x43800000#32),
    unary main_cst_0 main_v4 (Host.sqrt : (⟨S_, .f32⟩ : BufTy).Contents (Elt F) → (⟨S_, .f32⟩ : BufTy).Contents (Elt F)),
    unary main_v4 main_v5 (broadcastInDim S16384x20x20 ![] bcast_S_S16384x20x20 : (⟨S_, .f32⟩ : BufTy).Contents (Elt F) → (⟨S16384x20x20, .f32⟩ : BufTy).Contents (Elt F)),
    binary main_v3 main_v5 main_v6 (Host.divf : (⟨S16384x20x20, .f32⟩ : BufTy).Contents (Elt F) → (⟨S16384x20x20, .f32⟩ : BufTy).Contents (Elt F) → (⟨S16384x20x20, .f32⟩ : BufTy).Contents (Elt F)),
    unary main_cst main_v7 (broadcastInDim S1x20x20 ![1, 2] bcast_S20x20_S1x20x20_1_2 : (⟨S20x20, .f32⟩ : BufTy).Contents (Elt F) → (⟨S1x20x20, .f32⟩ : BufTy).Contents (Elt F)),
    unary main_v7 main_v8 (broadcastInDim S16384x20x20 ![0, 1, 2] bcast_S1x20x20_S16384x20x20_0_1_2 : (⟨S1x20x20, .f32⟩ : BufTy).Contents (Elt F) → (⟨S16384x20x20, .f32⟩ : BufTy).Contents (Elt F)),
    binary main_v6 main_v8 main_v9 (addf : (⟨S16384x20x20, .f32⟩ : BufTy).Contents (Elt F) → (⟨S16384x20x20, .f32⟩ : BufTy).Contents (Elt F) → (⟨S16384x20x20, .f32⟩ : BufTy).Contents (Elt F)),
    nullary main_cst_1 (constant S_ .f32 0xFF800000#32),
    binary main_v9 main_cst_1 main_v10 ((fun x v => Host.reduce FloatOps.maximumf x v reducesTo_S16384x20x20_S16384x20_d2 h_S_) : (⟨S16384x20x20, .f32⟩ : BufTy).Contents (Elt F) → (⟨S_, .f32⟩ : BufTy).Contents (Elt F) → (⟨S16384x20, .f32⟩ : BufTy).Contents (Elt F)),
    nullary main_cst_2 (constant S_ .f32 0xFF800000#32),
    unary main_cst_2 main_v11 (broadcastInDim S16384x20 ![] bcast_S_S16384x20 : (⟨S_, .f32⟩ : BufTy).Contents (Elt F) → (⟨S16384x20, .f32⟩ : BufTy).Contents (Elt F)),
    binary main_v11 main_v10 main_v12 (maximumf : (⟨S16384x20, .f32⟩ : BufTy).Contents (Elt F) → (⟨S16384x20, .f32⟩ : BufTy).Contents (Elt F) → (⟨S16384x20, .f32⟩ : BufTy).Contents (Elt F)),
    unary main_v12 main_v13 (broadcastInDim S16384x20x1 ![0, 1] bcast_S16384x20_S16384x20x1_0_1 : (⟨S16384x20, .f32⟩ : BufTy).Contents (Elt F) → (⟨S16384x20x1, .f32⟩ : BufTy).Contents (Elt F)),
    unary main_v13 main_v14 (broadcastInDim S16384x20x20 ![0, 1, 2] bcast_S16384x20x1_S16384x20x20_0_1_2 : (⟨S16384x20x1, .f32⟩ : BufTy).Contents (Elt F) → (⟨S16384x20x20, .f32⟩ : BufTy).Contents (Elt F)),
    binary main_v9 main_v14 main_v15 (subf : (⟨S16384x20x20, .f32⟩ : BufTy).Contents (Elt F) → (⟨S16384x20x20, .f32⟩ : BufTy).Contents (Elt F) → (⟨S16384x20x20, .f32⟩ : BufTy).Contents (Elt F)),
    unary main_v15 main_v16 (Host.exp : (⟨S16384x20x20, .f32⟩ : BufTy).Contents (Elt F) → (⟨S16384x20x20, .f32⟩ : BufTy).Contents (Elt F)),
    nullary main_cst_3 (constant S_ .f32 0x00000000#32),
    binary main_v16 main_cst_3 main_v17 ((fun x v => Host.reduceAdd x v reducesTo_S16384x20x20_S16384x20_d2 h_S_) : (⟨S16384x20x20, .f32⟩ : BufTy).Contents (Elt F) → (⟨S_, .f32⟩ : BufTy).Contents (Elt F) → (⟨S16384x20, .f32⟩ : BufTy).Contents (Elt F)),
    unary main_v17 main_v18 (broadcastInDim S16384x20x1 ![0, 1] bcast_S16384x20_S16384x20x1_0_1 : (⟨S16384x20, .f32⟩ : BufTy).Contents (Elt F) → (⟨S16384x20x1, .f32⟩ : BufTy).Contents (Elt F)),
    unary main_v18 main_v19 (broadcastInDim S16384x20x20 ![0, 1, 2] bcast_S16384x20x1_S16384x20x20_0_1_2 : (⟨S16384x20x1, .f32⟩ : BufTy).Contents (Elt F) → (⟨S16384x20x20, .f32⟩ : BufTy).Contents (Elt F)),
    binary main_v16 main_v19 main_v20 (Host.divf : (⟨S16384x20x20, .f32⟩ : BufTy).Contents (Elt F) → (⟨S16384x20x20, .f32⟩ : BufTy).Contents (Elt F) → (⟨S16384x20x20, .f32⟩ : BufTy).Contents (Elt F)),
    binary main_v20 main_v2 main_v21 ((fun l r => Host.dotGeneral dot_S16384x20x20_S16384x20x256_S16384x20x256_2_1_1_2_0_0 none l r) : (⟨S16384x20x20, .f32⟩ : BufTy).Contents (Elt F) → (⟨S16384x20x256, .f32⟩ : BufTy).Contents (Elt F) → (⟨S16384x20x256, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., binary_bufs_sub .., binary_bufs_sub .., binary_bufs_sub .., nullary_bufs_sub ..,
    unary_bufs_sub .., unary_bufs_sub .., binary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub ..⟩

/-- The scores divided by the square root of the constant 256, with the mask added. -/
def refLogits (q k : FVec F S16384x20x256 .f32) : FVec F S16384x20x20 .f32 :=
  addf (Host.divf (Host.dotGeneral dot_S16384x20x256_S16384x20x256_S16384x20x20_2_2_1_1_0_0 none q k)
      (broadcastInDim S16384x20x20 ![] bcast_S_S16384x20x20 (Host.sqrt (constant S_ .f32 0x43800000#32))))
    (broadcastInDim S16384x20x20 ![0, 1, 2] bcast_S1x20x20_S16384x20x20_0_1_2
      (broadcastInDim S1x20x20 ![1, 2] bcast_S20x20_S1x20x20_1_2 (maskArr (F := F))))

/-- A [16384, 20] array as a column repeated along the last axis. -/
def refSpread (M : FVec F S16384x20 .f32) : FVec F S16384x20x20 .f32 :=
  broadcastInDim S16384x20x20 ![0, 1, 2] bcast_S16384x20x1_S16384x20x20_0_1_2
    (broadcastInDim S16384x20x1 ![0, 1] bcast_S16384x20_S16384x20x1_0_1 M)

/-- Each row's maximum (the reduction, then once more against the bottom element). -/
def refMax (L : FVec F S16384x20x20 .f32) : FVec F S16384x20 .f32 :=
  maximumf (broadcastInDim S16384x20 ![] bcast_S_S16384x20 (constant S_ .f32 0xFF800000#32))
    (Host.reduce FloatOps.maximumf L (constant S_ .f32 0xFF800000#32) reducesTo_S16384x20x20_S16384x20_d2 h_S_)

/-- The exponentials of the logits less their row's maximum. -/
def refExp (L : FVec F S16384x20x20 .f32) : FVec F S16384x20x20 .f32 := Host.exp (subf L (refSpread (refMax L)))

/-- Each row's sum. -/
def refSum (P : FVec F S16384x20x20 .f32) : FVec F S16384x20 .f32 :=
  Host.reduceAdd P (constant S_ .f32 0x00000000#32) reducesTo_S16384x20x20_S16384x20_d2 h_S_

/-- The softmax weights from the projected queries and keys. -/
def refWeights (q k : FVec F S16384x20x256 .f32) : FVec F S16384x20x20 .f32 :=
  Host.divf (refExp (refLogits q k)) (refSpread (refSum (refExp (refLogits q k))))

/-- A projection: the features against a weight matrix, contracted over the channel axis. -/
def refProj (x : FVec F S16384x20x256 .f32) (w : FVec F S256x256 .f32) : FVec F S16384x20x256 .f32 :=
  Host.dotGeneral dot_S16384x20x256_S256x256_S16384x20x256_2_1_01_0_n_n none x w

/-- The reference's result as one term of its five arguments. -/
def refTerm (f₁ f₂ : FVec F S16384x20x256 .f32) (wq wk wv : FVec F S256x256 .f32) : FVec F S16384x20x256 .f32 :=
  Host.dotGeneral dot_S16384x20x20_S16384x20x256_S16384x20x256_2_1_1_2_0_0 none
    (refWeights (refProj f₁ wq) (refProj f₂ wk)) (refProj f₂ wv)

/-- On every device, from any memory with zero counters: every weakly fair execution of @main terminates with the
    result at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = refTerm (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v21).trans (by unfold refTerm refWeights refExp refSum refMax refSpread refLogits refProj maskArr; after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference's result, read at an entry, is the specification.

  Each stage of the reference's composed term is read at coordinates: a projection at (B, t, h) is
  Σ_c x (B, t, c) · w (h, c); the logits at (B, t, s) are the scores divided by √256 plus the mask at (t, s); a row's
  maximum is the fold of max from the bottom element (taking the maximum once more against the bottom element changes
  nothing, a fold from an element being at least that element); the row sums start from the zero word, which denotes
  0. Together the result at (B, t, h) is `Attn.head` of batch element B's rows with the dividing scale, and dividing
  by √256 is multiplying by 1/16 (`Attn.scale_eq`).
-/
import proofs.«116594_j61349312856384_2_alg».proof.Proof.RefRun
import proofs.«116594_j61349312856384_2_alg».proof.Proof.Spec
import proofs.«116594_j61349312856384_2_alg».proof.Proof.LibContract
import proofs.«116594_j61349312856384_2_alg».proof.Proof.LibRowReduce
import Idealize.ShloMosaic.Lib.Pipeline.Value
import Idealize.ShloMosaic.Lib.ValueLayout

noncomputable section

namespace Cert.ReferenceIdeal.RefValue

open Cert.ReferenceIdeal Cert.ReferenceIdeal.Gen Cert.ReferenceIdeal.RefRun Idealize.ShloMosaic Idealize.ShloMosaic.ValueIdx Cert.Attn
open scoped BigOperators

/-! ## The three products' dimension numbers -/

abbrev E1 : DotDims S16384x20x256 S256x256 S16384x20x256 := dot_S16384x20x256_S256x256_S16384x20x256_2_1_01_0_n_n
abbrev E3 : DotDims S16384x20x256 S16384x20x256 S16384x20x20 := dot_S16384x20x256_S16384x20x256_S16384x20x20_2_2_1_1_0_0
abbrev E4 : DotDims S16384x20x20 S16384x20x256 S16384x20x256 := dot_S16384x20x20_S16384x20x256_S16384x20x256_2_1_1_2_0_0

theorem r1 : E1.contr.rank = 1 := rfl
theorem s1 : E1.contr.size ⟨0, by rw [r1]; exact Nat.one_pos⟩ = 256 := rfl
theorem r3 : E3.contr.rank = 1 := rfl
theorem s3 : E3.contr.size ⟨0, by rw [r3]; exact Nat.one_pos⟩ = 256 := rfl
theorem r4 : E4.contr.rank = 1 := rfl
theorem s4 : E4.contr.size ⟨0, by rw [r4]; exact Nat.one_pos⟩ = 20 := rfl

theorem l1 (B : Fin 16384) (t : Fin 20) (hh : Fin 256) (q : E1.contr.Idx) (i : Fin 256) (h : (q ⟨0, by rw [r1]; exact Nat.one_pos⟩).val = i.val) :
    E1.lhsIdx (ix3 B t hh) q = ix3 B t i := funext fun ax => Fin.ext (by
      match ax with
      | ⟨0, _⟩ => rfl
      | ⟨1, _⟩ => rfl
      | ⟨2, _⟩ => exact h)
theorem rh1 (B : Fin 16384) (t : Fin 20) (hh : Fin 256) (q : E1.contr.Idx) (i : Fin 256) (h : (q ⟨0, by rw [r1]; exact Nat.one_pos⟩).val = i.val) :
    E1.rhsIdx (ix3 B t hh) q = ix2 hh i := funext fun ax => Fin.ext (by
      match ax with
      | ⟨0, _⟩ => rfl
      | ⟨1, _⟩ => exact h)
theorem l3 (B : Fin 16384) (t s : Fin 20) (q : E3.contr.Idx) (i : Fin 256) (h : (q ⟨0, by rw [r3]; exact Nat.one_pos⟩).val = i.val) :
    E3.lhsIdx (ix3 B t s) q = ix3 B t i := funext fun ax => Fin.ext (by
      match ax with
      | ⟨0, _⟩ => rfl
      | ⟨1, _⟩ => rfl
      | ⟨2, _⟩ => exact h)
theorem rh3 (B : Fin 16384) (t s : Fin 20) (q : E3.contr.Idx) (i : Fin 256) (h : (q ⟨0, by rw [r3]; exact Nat.one_pos⟩).val = i.val) :
    E3.rhsIdx (ix3 B t s) q = ix3 B s i := funext fun ax => Fin.ext (by
      match ax with
      | ⟨0, _⟩ => rfl
      | ⟨1, _⟩ => rfl
      | ⟨2, _⟩ => exact h)
theorem l4 (B : Fin 16384) (t : Fin 20) (hh : Fin 256) (q : E4.contr.Idx) (i : Fin 20) (h : (q ⟨0, by rw [r4]; exact Nat.one_pos⟩).val = i.val) :
    E4.lhsIdx (ix3 B t hh) q = ix3 B t i := funext fun ax => Fin.ext (by
      match ax with
      | ⟨0, _⟩ => rfl
      | ⟨1, _⟩ => rfl
      | ⟨2, _⟩ => exact h)
theorem rh4 (B : Fin 16384) (t : Fin 20) (hh : Fin 256) (q : E4.contr.Idx) (i : Fin 20) (h : (q ⟨0, by rw [r4]; exact Nat.one_pos⟩).val = i.val) :
    E4.rhsIdx (ix3 B t hh) q = ix3 B i hh := funext fun ax => Fin.ext (by
      match ax with
      | ⟨0, _⟩ => rfl
      | ⟨1, _⟩ => exact h
      | ⟨2, _⟩ => rfl)

/-- The last axis of a [16384, 20, 20] array can be summed or folded away. -/
theorem reduces3 : S16384x20x20.Reduces [2] S16384x20 := by decide

/-! ## Each stage at an entry -/

theorem refProj_apply (x : FVec Ideal S16384x20x256 .f32) (w : FVec Ideal S256x256 .f32) (B : Fin 16384) (t : Fin 20) (h : Fin 256) :
    refProj x w (ix3 B t h) = ∑ c : Fin 256, x (ix3 B t c) * w (ix2 h c) :=
  Cert.LibContract.dotGeneral_apply E1 256 r1 s1 none .single x w (ix3 B t h) (fun i => ix3 B t i) (fun i => ix2 h i) (l1 B t h) (rh1 B t h)

theorem refLogits_apply (q k : FVec Ideal S16384x20x256 .f32) (B : Fin 16384) (t s : Fin 20) :
    refLogits q k (ix3 B t s) = scDiv (∑ h : Fin 256, q (ix3 B t h) * k (ix3 B s h)) + maskArr (F := Ideal) (ix2 t s) := by
  show Ideal.div (FloatOps.dotGeneral E3 none .single q k (ix3 B t s))
        (broadcastInDim S16384x20x20 ![] bcast_S_S16384x20x20 (Host.sqrt (constant (F := Ideal) S_ .f32 0x43800000#32)) (ix3 B t s))
      + broadcastInDim S16384x20x20 ![0, 1, 2] bcast_S1x20x20_S16384x20x20_0_1_2
          (broadcastInDim S1x20x20 ![1, 2] bcast_S20x20_S1x20x20_1_2 (maskArr (F := Ideal))) (ix3 B t s) = _
  rw [Cert.LibContract.dotGeneral_apply E3 256 r3 s3 none .single q k (ix3 B t s) (fun i => ix3 B t i) (fun i => ix3 B s i) (l3 B t s) (rh3 B t s),
    broadcastInDim_apply _ _ _ (ix3 B t s) ix0 (fun a => a.elim0),
    broadcastInDim_apply _ _ _ (ix3 B t s) (ix3 (0 : Fin 1) t s) (fun ax => by
      match ax with
      | ⟨0, _⟩ => rfl
      | ⟨1, _⟩ => rfl
      | ⟨2, _⟩ => rfl),
    broadcastInDim_apply _ _ _ (ix3 (0 : Fin 1) t s) (ix2 t s) (fun ax => by
      match ax with
      | ⟨0, _⟩ => rfl
      | ⟨1, _⟩ => rfl)]
  rfl

theorem refSpread_apply (M : FVec Ideal S16384x20 .f32) (B : Fin 16384) (t s : Fin 20) : refSpread M (ix3 B t s) = M (ix2 B t) := by
  unfold refSpread
  rw [broadcastInDim_apply _ _ _ (ix3 B t s) (ix3 B t (0 : Fin 1)) (fun ax => by
      match ax with
      | ⟨0, _⟩ => rfl
      | ⟨1, _⟩ => rfl
      | ⟨2, _⟩ => rfl),
    broadcastInDim_apply _ _ _ (ix3 B t (0 : Fin 1)) (ix2 B t) (fun ax => by
      match ax with
      | ⟨0, _⟩ => rfl
      | ⟨1, _⟩ => rfl)]

theorem refMax_apply (L : FVec Ideal S16384x20x20 .f32) (B : Fin 16384) (t : Fin 20) :
    refMax L (ix2 B t) = rowMax ninf fun s => L (ix3 B t s) := by
  unfold refMax
  rw [maximumf_apply, broadcastInDim_apply _ _ _ (ix2 B t) ix0 (fun a => a.elim0),
    Cert.LibRowReduce.hostReduce_last3 (FloatOps.maximumf (F := Ideal) (φ := .f32)) L _ reducesTo_S16384x20x20_S16384x20_d2 reduces3 h_S_ B t]
  show max ninf (Finset.fold max ninf (fun k => L (ix3 B t k)) (Finset.univ : Finset (Fin 20))) = Finset.fold max ninf (fun s => L (ix3 B t s)) (Finset.univ : Finset (Fin 20))
  exact max_eq_right ((Finset.le_fold_max _).mpr (Or.inl le_rfl))

theorem refExp_apply (L : FVec Ideal S16384x20x20 .f32) (B : Fin 16384) (t s : Fin 20) :
    refExp L (ix3 B t s) = Ideal.exp (L (ix3 B t s) - rowMax ninf fun s' => L (ix3 B t s')) := by
  show Ideal.exp (L (ix3 B t s) - refSpread (refMax L) (ix3 B t s)) = _
  rw [refSpread_apply, refMax_apply]

theorem refSum_apply (P : FVec Ideal S16384x20x20 .f32) (B : Fin 16384) (t : Fin 20) :
    refSum P (ix2 B t) = ∑ s : Fin 20, P (ix3 B t s) := by
  have h1 : refSum P (ix2 B t)
      = Ideal.hostReduceAdd reducesTo_S16384x20x20_S16384x20_d2 P (Ideal.ofBits .f32 0x00000000#32) (ix2 B t) := rfl
  rw [h1]
  rw [Cert.LibRowReduce.hostReduceAdd_last3 P _ reducesTo_S16384x20x20_S16384x20_d2 reduces3 B t]
  rw [Ideal.ofBits_zero_f32]
  rw [zero_add]

/-- The host's quotient at an entry is the quotient of the entries. -/
theorem hostDivf_apply (X Y : FVec Ideal S16384x20x20 .f32) (i : S16384x20x20.Idx) : Host.divf X Y i = Ideal.div (X i) (Y i) := rfl

theorem refWeights_apply (q k : FVec Ideal S16384x20x256 .f32) (B : Fin 16384) (t s : Fin 20) :
    refWeights q k (ix3 B t s) = weights ninf (fun t' s' => refLogits q k (ix3 B t' s')) t s := by
  unfold refWeights
  rw [hostDivf_apply, refSpread_apply, refSum_apply, refExp_apply]
  unfold weights
  exact congrArg (Ideal.div _) (Finset.sum_congr rfl fun s' _ => refExp_apply _ B t s')

/-! ## The whole term -/

/-- The reference's result is the specification, with the dividing scale. -/
theorem refTerm_eq_div (f₁ f₂ : FVec Ideal S16384x20x256 .f32) (wq wk wv : FVec Ideal S256x256 .f32) :
    refTerm f₁ f₂ wq wk wv = G scDiv f₁ f₂ wq wk wv (maskArr (F := Ideal)) := by
  funext i
  obtain ⟨B, t, h, rfl⟩ : ∃ (B : Fin 16384) (t : Fin 20) (h : Fin 256), i = ix3 B t h := ⟨i 0, i 1, i 2, eq_ix3 i⟩
  show FloatOps.dotGeneral E4 none .single (refWeights (refProj f₁ wq) (refProj f₂ wk)) (refProj f₂ wv) (ix3 B t h)
    = head scDiv ninf (fun t' c => f₁ (ix3 B t' c)) (fun t' c => f₂ (ix3 B t' c)) (fun h' c => wq (ix2 h' c)) (fun h' c => wk (ix2 h' c))
        (fun h' c => wv (ix2 h' c)) (fun t' s => maskArr (F := Ideal) (ix2 t' s)) t h
  rw [Cert.LibContract.dotGeneral_apply E4 20 r4 s4 none .single _ _ (ix3 B t h) (fun i => ix3 B t i) (fun i => ix3 B i h) (l4 B t h) (rh4 B t h)]
  unfold head core mix
  refine Finset.sum_congr rfl fun s _ => ?_
  rw [refWeights_apply, refProj_apply]
  refine congrArg₂ (· * ·) (congrArg (fun L => weights ninf L t s) (funext fun t' => funext fun s' => ?_)) rfl
  rw [refLogits_apply]
  unfold logits rowsDot
  refine congrArg (fun z => scDiv z + maskArr (F := Ideal) (ix2 t' s')) (Finset.sum_congr rfl fun h' _ => ?_)
  rw [refProj_apply, refProj_apply]

/-- The same with the multiplying scale: dividing by √256 is multiplying by 1/16. -/
theorem refTerm_eq (f₁ f₂ : FVec Ideal S16384x20x256 .f32) (wq wk wv : FVec Ideal S256x256 .f32) :
    refTerm f₁ f₂ wq wk wv = G scMul f₁ f₂ wq wk wv (maskArr (F := Ideal)) := by
  rw [refTerm_eq_div, scale_eq]

end Cert.ReferenceIdeal.RefValue

end
-- ==== Proof.lean ====
/-
  A fused attention kernel against its plain reference, on the extended reals.

  Both programs project the two feature arrays (16384 batch elements of 20 rows and 256 channels) by three 256 × 256
  weight matrices, q = f₁·Wqᵀ, k = f₂·Wkᵀ, v = f₂·Wvᵀ, form per batch element the 20 × 20 scores q·kᵀ, scale them, add a
  fixed mask, take a row-wise softmax (subtracting each row's maximum), and return the weights times v. The kernel does
  this 64 batch elements at a time on feature rows flattened to two dimensions, with the key and value weights side by
  side in one matrix whose product it cuts apart again, and scales the scores by the word for 1/16; the reference
  divides them by the square root of the word for 256, and takes the row maximum once more against the bottom element.

  On the extended reals the two are one function of the arguments, `Attn.G`: the kernel's blocks are blocks of it and
  cover the result (Proof/KerBlock.lean, Proof/KerFinal.lean, over the generated value leg of the idealized kernel);
  the reference's run ends at a composed term (Proof/RefRun.lean) which, read entry by entry, is it with the dividing
  scale (Proof/RefValue.lean); and x / √256 = x · (1/16) for every extended real x (Proof/Spec.lean). Only finite sums
  are re-indexed, never re-associated across an infinity, so the precondition is not used beyond the frames. The two
  programs print the mask as two tables of the same 400 words (`lit_eq`). The idealization rewrote nothing, so
  `preserves` is trivial; the kernels' frames are the generated ones and the reference's frame is its run.
-/
import proofs.«116594_j61349312856384_2_alg».proof.Defs
import proofs.«116594_j61349312856384_2_alg».proof.Proof.Gen.Kernel
import proofs.«116594_j61349312856384_2_alg».proof.Proof.Gen.Kernel.Frame
import proofs.«116594_j61349312856384_2_alg».proof.Proof.Gen.KernelIdeal
import proofs.«116594_j61349312856384_2_alg».proof.Proof.Gen.KernelIdeal.Frame
import proofs.«116594_j61349312856384_2_alg».proof.Proof.Gen.KernelIdeal.Value
import proofs.«116594_j61349312856384_2_alg».proof.Proof.Gen.ReferenceIdeal
import proofs.«116594_j61349312856384_2_alg».proof.Proof.Gen.Pre_finite_inputs
import proofs.«116594_j61349312856384_2_alg».proof.Proof.KerFinal
import proofs.«116594_j61349312856384_2_alg».proof.Proof.RefValue
import Idealize.ShloMosaic.Adequacy
import Idealize.ShloMosaic.Init

noncomputable section

namespace Cert.Proof

open Idealize.ShloMosaic Idealize.SL.Sem

/-- The two programs' mask tables hold the same words. -/
theorem lit_eq : ∀ i : Fin 400, Cert.KernelIdeal.lit0 i = Cert.ReferenceIdeal.lit0 i := by decide +kernel

/-- So the two mask arrays are one array. -/
theorem mask_eq : Cert.KernelIdeal.Final.maskK = Cert.ReferenceIdeal.RefRun.maskArr (F := Ideal) :=
  funext fun _ => congrArg (Ideal.ofBits .f32) (lit_eq _)

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end at the specification of the (agreeing) arguments. -/
theorem algebraic : Cert.algebraic_KernelIdeal_ReferenceIdeal := by
  intro m ρ m' ρ' _ hagree
  refine ⟨fun c => Cert.KernelIdeal.Final.Gk m c, Cert.KernelIdeal.Final.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refTerm_eq, (hagree c).1, (hagree c).2.1, (hagree c).2.2.1, (hagree c).2.2.2.1,
    (hagree c).2.2.2.2, ← mask_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
